-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x2048x2048 : Shape := ⟨4, ![2, 4, 2048, 2048]⟩
abbrev S2x4x2048x256 : Shape := ⟨4, ![2, 4, 2048, 256]⟩
abbrev S_ : Shape := ⟨0, ![]⟩

class Facts : Prop where
  bcast_S_S2x4x2048x2048 : S_.BroadcastsInDim S2x4x2048x2048 (![] : Fin 0 → Fin S2x4x2048x2048.rank)
  reducesTo_S2x4x2048x2048_S_d0_1_2_3 : S2x4x2048x2048.ReducesTo [0, 1, 2, 3] S_
  h_S_ : 0 < S_.numel
  bcast_S_S2x4x2048x256 : S_.BroadcastsInDim S2x4x2048x256 (![] : Fin 0 → Fin S2x4x2048x256.rank)
  reducesTo_S2x4x2048x256_S_d0_1_2_3 : S2x4x2048x256.ReducesTo [0, 1, 2, 3] S_

variable [Facts]

def fn {F : FTy → Type} [FloatOps F] (main_arg0 : FVec F S2x4x2048x2048 .f32) (main_arg1 : FVec F S2x4x2048x256 .f32) : IVec S_ 1 :=
  let main_v0 : FVec F S2x4x2048x2048 .f32 := Host.absf main_arg0
  let main_cst : FVec F S_ .f32 := constant S_ .f32 0x7F800000#32
  let main_v1 : FVec F S2x4x2048x2048 .f32 := broadcastInDim S2x4x2048x2048 ![] bcast_S_S2x4x2048x2048 main_cst
  let main_v2 : IVec S2x4x2048x2048 1 := cmpf .olt main_v0 main_v1
  let main_c : IVec S_ 1 := constantI S_ 1 1#1
  let main_v3 : IVec S_ 1 := (fun x v => Host.reduce IntOp.andi x v reducesTo_S2x4x2048x2048_S_d0_1_2_3 h_S_) main_v2 main_c
  let main_v4 : FVec F S2x4x2048x256 .f32 := Host.absf main_arg1
  let main_cst_0 : FVec F S_ .f32 := constant S_ .f32 0x7F800000#32
  let main_v5 : FVec F S2x4x2048x256 .f32 := broadcastInDim S2x4x2048x256 ![] bcast_S_S2x4x2048x256 main_cst_0
  let main_v6 : IVec S2x4x2048x256 1 := cmpf .olt main_v4 main_v5
  let main_c_1 : IVec S_ 1 := constantI S_ 1 1#1
  let main_v7 : IVec S_ 1 := (fun x v => Host.reduce IntOp.andi x v reducesTo_S2x4x2048x256_S_d0_1_2_3 h_S_) main_v6 main_c_1
  let main_v8 : IVec S_ 1 := andi main_v3 main_v7
  main_v8
-- ==== Kernel.lean ====
abbrev S2x4x2048x2048 : Shape := ⟨4, ![2, 4, 2048, 2048]⟩
abbrev S2x4x2048x256 : Shape := ⟨4, ![2, 4, 2048, 256]⟩
abbrev S8x2048x2048 : Shape := ⟨3, ![8, 2048, 2048]⟩
abbrev S8x2048x256 : Shape := ⟨3, ![8, 2048, 256]⟩
abbrev S1x512x2048 : Shape := ⟨3, ![1, 512, 2048]⟩
abbrev S1x2048x256 : Shape := ⟨3, ![1, 2048, 256]⟩
abbrev S1x512x256 : Shape := ⟨3, ![1, 512, 256]⟩
abbrev S512x2048 : Shape := ⟨2, ![512, 2048]⟩
abbrev S2048x256 : Shape := ⟨2, ![2048, 256]⟩
abbrev S512x256 : Shape := ⟨2, ![512, 256]⟩

abbrev nBuf : Space → Nat
  | .hbm => 6
  | .vmem => 6
  | .smem => 0
  | _ => 0

abbrev bufTy : (tb : Table) → Fin (tcTables nBuf tb) → BufTy
  | .hbm, ⟨0, _⟩ => ⟨S2x4x2048x2048, .f32⟩
  | .hbm, ⟨1, _⟩ => ⟨S2x4x2048x256, .f32⟩
  | .hbm, ⟨2, _⟩ => ⟨S8x2048x2048, .f32⟩
  | .hbm, ⟨3, _⟩ => ⟨S8x2048x256, .f32⟩
  | .hbm, ⟨4, _⟩ => ⟨S8x2048x256, .f32⟩
  | .hbm, ⟨5, _⟩ => ⟨S2x4x2048x256, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x512x256, .f32⟩
  | .local _ .vmem, ⟨5, _⟩ => ⟨S1x512x256, .f32⟩
  | _, _ => ⟨S2x4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S2x4x2048x2048_S8x2048x2048 : S2x4x2048x2048.ShapeCasts S8x2048x2048
  shapeCasts_S2x4x2048x256_S8x2048x256 : S2x4x2048x256.ShapeCasts S8x2048x256
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  shapeCasts_S8x2048x256_S2x4x2048x256 : S8x2048x256.ShapeCasts S2x4x2048x256
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x256.size a
  hwx0_1 : ∀ i : grid0.Coords, EltTy.bits .f32 = 32 ∨ (Rect.block (s := S8x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S8x2048x256.size a
  hwx0_2 : ∀ i : grid0.Coords, EltTy.bits .f32 = 32 ∨ (Rect.block (s := S8x2048x256) S1x512x256.size (cc0_transform_2 i) (hinb0_2 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x4x2048x2048 : Shape := ⟨4, ![2, 4, 2048, 2048]⟩
abbrev S2x4x2048x256 : Shape := ⟨4, ![2, 4, 2048, 256]⟩
abbrev S8x2048x2048 : Shape := ⟨3, ![8, 2048, 2048]⟩
abbrev S8x2048x256 : Shape := ⟨3, ![8, 2048, 256]⟩

abbrev nBuf : Space → Nat
  | .hbm => 6
  | .vmem => 0
  | .smem => 0
  | _ => 0

abbrev bufTy : (tb : Table) → Fin (tcTables nBuf tb) → BufTy
  | .hbm, ⟨0, _⟩ => ⟨S2x4x2048x2048, .f32⟩
  | .hbm, ⟨1, _⟩ => ⟨S2x4x2048x256, .f32⟩
  | .hbm, ⟨2, _⟩ => ⟨S8x2048x2048, .f32⟩
  | .hbm, ⟨3, _⟩ => ⟨S8x2048x256, .f32⟩
  | .hbm, ⟨4, _⟩ => ⟨S8x2048x256, .f32⟩
  | .hbm, ⟨5, _⟩ => ⟨S2x4x2048x256, .f32⟩
  | _, _ => ⟨S2x4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  shapeCasts_S2x4x2048x2048_S8x2048x2048 : S2x4x2048x2048.ShapeCasts S8x2048x2048
  shapeCasts_S2x4x2048x256_S8x2048x256 : S2x4x2048x256.ShapeCasts S8x2048x256
  shapeCasts_S8x2048x256_S2x4x2048x256 : S8x2048x256.ShapeCasts S2x4x2048x256
  dot_S8x2048x2048_S8x2048x256_S8x2048x256_2_1_1_2_0_0_wf : DotDims.WF S8x2048x2048 S8x2048x256 S8x2048x256 [2] [1] [1] [2] [0] [0]

variable [Facts₀]

def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.Tile.lean ====
/-
  One grid point's arithmetic, read at an index. The body loads a [1, 512, 2048] tile of the left operand and a
  [1, 2048, 256] tile of the right one, drops the unit axis, rounds to bf16 (the identity on the extended reals),
  multiplies the two matrices on the matrix unit into a zero accumulator, and restores the unit axis. So entry
  `(u, p, q)` of what it stores is `∑ k < 2048, x0[0, p, k] · x1[0, k, q]`.
-/
import proofs.«126735_g50268297232528_cont_8to1_c_1024_3_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The tile product's dimension numbers: rows × contraction times contraction × columns, no batch axis. -/
abbrev D := dot_S512x2048_S2048x256_S512x256_1_0_0_1_n_n

/-- Along the row axis the left operand's index follows the output's row. -/
theorem lhs_row (j : S512x256.Idx) (c : D.contr.Idx) : (D.lhsIdx j c 0).val = (j 0).val := by
  unfold DotDims.lhsIdx
  rw [dif_neg (show ¬(0 : Fin S512x2048.rank) ∈ D.lhsBatch by decide),
    dif_pos (show (0 : Fin S512x2048.rank) ∈ D.lhsNonContracting by decide)]
  rfl
/-- Along the contracted axis it follows the contraction index. -/
theorem lhs_contr (j : S512x256.Idx) (c : D.contr.Idx) : (D.lhsIdx j c 1).val = (c ⟨0, by decide⟩).val :=
  D.lhsIdx_val_of_single rfl j c
/-- Along the contracted axis the right operand's index follows the contraction index. -/
theorem rhs_contr (j : S512x256.Idx) (c : D.contr.Idx) : (D.rhsIdx j c 0).val = (c ⟨0, by decide⟩).val :=
  D.rhsIdx_val_of_single rfl j c
/-- Along the column axis it follows the output's column. -/
theorem rhs_col (j : S512x256.Idx) (c : D.contr.Idx) : (D.rhsIdx j c 1).val = (j 1).val := by
  unfold DotDims.rhsIdx
  rw [dif_neg (show ¬(1 : Fin S2048x256.rank) ∈ D.rhsBatch by decide),
    dif_pos (show (1 : Fin S2048x256.rank) ∈ D.rhsNonContracting by decide)]
  rfl

/-- The left factor of the `k`-th term at output entry `(p, q)` sits at `(p, k)`. -/
theorem lhs_at (p : Fin 512) (q : Fin 256) (k : Fin 2048) :
    D.lhsIdx (ix2 p q) ((contrEquiv1 D 2048 rfl rfl).symm k) = ix2 p k := by
  funext a; apply Fin.ext
  match a with
  | ⟨0, _⟩ => exact lhs_row _ _
  | ⟨1, _⟩ => exact (lhs_contr _ _).trans (contrEquiv1_symm_val D 2048 rfl rfl k)

/-- The right factor of the `k`-th term at output entry `(p, q)` sits at `(k, q)`. -/
theorem rhs_at (p : Fin 512) (q : Fin 256) (k : Fin 2048) :
    D.rhsIdx (ix2 p q) ((contrEquiv1 D 2048 rfl rfl).symm k) = ix2 k q := by
  funext a; apply Fin.ext
  match a with
  | ⟨0, _⟩ => exact (rhs_contr _ _).trans (contrEquiv1_symm_val D 2048 rfl rfl k)
  | ⟨1, _⟩ => exact rhs_col _ _

/-- What the body stores, at entry `(u, p, q)`: row `p` of the left tile against column `q` of the right tile. -/
theorem tile_apply (x0 : Vec Ideal S1x512x2048 .f32) (x1 : Vec Ideal S1x2048x256 .f32) (u : Fin 1) (p : Fin 512) (q : Fin 256) :
    k0_pay1 (F := Ideal) x0 x1 (ix3 u p q) = ∑ k : Fin 2048, x0 (ix3 (0 : Fin 1) p k) * x1 (ix3 (0 : Fin 1) k q) := by
  unfold k0_pay1
  refine (shapeCast_ab_1ab_apply _ _ u p q).trans ?_
  refine (Ideal.matmul_constant_zero_apply D none _ _ (ix2 p q)).trans ?_
  refine (Equiv.sum_comp (contrEquiv1 D 2048 rfl rfl).symm _).symm.trans ?_
  refine Finset.sum_congr rfl fun k _ => ?_
  rw [lhs_at, rhs_at]
  exact congrArg₂ (· * ·) (shapeCast_1ab_ab_apply x0 _ p k) (shapeCast_1ab_ab_apply x1 _ k q)

end Cert.KernelIdeal.Tile

end
-- ==== Proof.Spec.lean ====
/-
  The batched matrix product both programs compute, as ONE function of the two operand arrays over the extended
  reals: for a batch `b`, a row `r` and a column `n`,
      out[b, r, n] = ∑ k < 2048, A[b, r, k] · B[b, k, n].
  The sum runs over the contracted axis in its natural order on both sides, so no law of the extended reals beyond
  reading each side at an index is needed, and finiteness of the inputs is never used.
-/
import Idealize.ShloMosaic.PureOps.Ideal
import Idealize.ShloMosaic.Lib.ValueIdx

noncomputable section

open scoped BigOperators

namespace Cert.BatchMatmul

open Idealize.ShloMosaic

/-- The left operands, one 2048 × 2048 matrix per batch. -/
abbrev ShA : Shape := ⟨3, ![8, 2048, 2048]⟩
/-- The right operands, one 2048 × 256 matrix per batch. -/
abbrev ShB : Shape := ⟨3, ![8, 2048, 256]⟩
/-- The products, one 2048 × 256 matrix per batch. -/
abbrev ShO : Shape := ⟨3, ![8, 2048, 256]⟩

/-- Entry `(b, r, k)` of the left operand: the batch and row of the output index `i`, the contraction index `k`. -/
abbrev lix (i : ShO.Idx) (k : Fin 2048) : ShA.Idx := fun a => match a with
  | ⟨0, _⟩ => ⟨(i 0).val, (i 0).isLt⟩
  | ⟨1, _⟩ => ⟨(i 1).val, (i 1).isLt⟩
  | ⟨2, _⟩ => ⟨k.val, k.isLt⟩
/-- Entry `(b, k, n)` of the right operand: the batch and column of the output index `i`, the contraction index `k`. -/
abbrev rix (i : ShO.Idx) (k : Fin 2048) : ShB.Idx := fun a => match a with
  | ⟨0, _⟩ => ⟨(i 0).val, (i 0).isLt⟩
  | ⟨1, _⟩ => ⟨k.val, k.isLt⟩
  | ⟨2, _⟩ => ⟨(i 2).val, (i 2).isLt⟩

/-- The batched product: each entry the sum over the contracted axis of the operands' products. -/
def bmm (A : ShA.Idx → EReal) (B : ShB.Idx → EReal) : ShO.Idx → EReal :=
  fun i => ∑ k : Fin 2048, A (lix i k) * B (rix i k)

end Cert.BatchMatmul

end
-- ==== Proof.Point.lean ====
/-
  One grid point against the whole arrays. Point `(b, r)` of the 8 × 4 grid works on batch `b` and on rows
  `512·r … 512·r + 511`: its left tile is those rows of `A[b]`, its right tile all of `B[b]`. The tile product of
  `Tile.tile_apply` at entry `(0, p, q)` is then entry `(b, 512·r + p, q)` of the batched product `bmm A B`: the same sum
  over the contracted axis, term by term.
-/
import proofs.«126735_g50268297232528_cont_8to1_c_1024_3_alg».proof.Proof.Tile
import proofs.«126735_g50268297232528_cont_8to1_c_1024_3_alg».proof.Proof.Spec

noncomputable section

open scoped BigOperators

namespace Cert.KernelIdeal.Tile

open Cert.KernelIdeal Cert.KernelIdeal.Gen Idealize.ShloMosaic Idealize.ShloMosaic.ValueIdx Cert.BatchMatmul

/-- If the left tile holds rows `512·r + p` of batch `b` of `A` and the right tile holds batch `b` of `B`, then the stored
    tile at `j` is `bmm A B` at any index `i` = (b, 512·r + j₁, j₂). -/
theorem point_eq (A : S8x2048x2048.Idx → EReal) (B : S8x2048x256.Idx → EReal)
    (x0 : Vec Ideal S1x512x2048 .f32) (x1 : Vec Ideal S1x2048x256 .f32) (b r : Nat)
    (h0 : ∀ (p : Fin 512) (k : Fin 2048) (a : S8x2048x2048.Idx),
      (a 0).val = b → (a 1).val = r * 512 + p.val → (a 2).val = k.val → x0 (ix3 (0 : Fin 1) p k) = A a)
    (h1 : ∀ (k : Fin 2048) (q : Fin 256) (a : S8x2048x256.Idx),
      (a 0).val = b → (a 1).val = k.val → (a 2).val = q.val → x1 (ix3 (0 : Fin 1) k q) = B a)
    (j : S1x512x256.Idx) (i : S8x2048x256.Idx)
    (hi0 : (i 0).val = b) (hi1 : (i 1).val = r * 512 + (j 1).val) (hi2 : (i 2).val = (j 2).val) :
    k0_pay1 (F := Ideal) x0 x1 j = bmm A B i := by
  obtain ⟨u, p, q, rfl⟩ : ∃ (u : Fin 1) (p : Fin 512) (q : Fin 256), j = ix3 u p q := ⟨j 0, j 1, j 2, eq_ix3 j⟩
  rw [tile_apply]
  unfold bmm
  refine Finset.sum_congr rfl fun k _ => ?_
  rw [h0 p k (lix i k) hi0 hi1 rfl, h1 k q (rix i k) hi0 rfl hi2]

end Cert.KernelIdeal.Tile

end
-- ==== Proof.Blocks.lean ====
/-
  From grid points to the whole result array. Point `t` of the 32-point grid is `(b, r) = (t / 4, t % 4)`: it reads rows
  `512·r … 512·r + 511` of batch `b` of the left operand and all of batch `b` of the right operand, and writes back rows
  `512·r … 512·r + 511` of batch `b` of the result. What it writes back is that block of the batched product of the two
  arrays the launch finds (`Tile.point_eq`); the 32 blocks tile the result array; so after the launch the result array
  is the batched product.
-/
import proofs.«126735_g50268297232528_cont_8to1_c_1024_3_alg».proof.Proof.Gen.KernelIdeal.Frame
import proofs.«126735_g50268297232528_cont_8to1_c_1024_3_alg».proof.Proof.Point
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.BatchMatmul
open Idealize.ShloMosaic.Pipeline (Dat)

variable (m : (ℓ : Loc nD τ sig) → Buf (Elt Ideal) ℓ)

theorem origin : (![0, 0, 0] : Fin 3 → Nat) = fun _ => 0 := funext fun a => by fin_cases a <;> rfl

/-- The three windows' block indices at point `t`: batch `t / 4` for all three, row block `t % 4` for the left operand
    and the result, and the whole extent of every other axis. -/
theorem block_index : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0 :=
  (by decide +kernel : ∀ t : Fin grid0.N, _)

/-- Every (batch, row block) pair is some point's. -/
theorem block_onto : ∀ (b : Fin 8) (r : Fin 4), ∃ t : Fin cfg0.N, win0_2.index t = ![b.val, r.val, 0] :=
  (by decide +kernel : ∀ (b : Fin 8) (r : Fin 4), ∃ t : Fin grid0.N, win0_2.index t = ![b.val, r.val, 0])

/-- What point `t` writes back is block `t` of the batched product of the arrays the launch finds. -/
theorem flushed_eq (c : Dev nD) (t : Fin cfg0.N) :
    (dats m 0 c).flushed 2 t = ((cfg0.win 2).blk t).view.read (Elt Ideal) (bmm (V m c main_v0) (V m c main_v1)) := by
  show (cfg0.win 2).cut (grid0.coords t) ((dats m 0 c).after 2 t) = _
  rw [after0_2]
  unfold out0_2
  rw [View.canon_unit_zero origin]
  simp only [View.ld_unit_zero (S := S1x512x2048) origin, View.ld_unit_zero (S := S1x2048x256) origin]
  obtain ⟨e00, e01, e02, e10, e11, e12, e20, e21, e22⟩ := block_index t
  funext j
  show k0_pay1 (F := Ideal) (iblk m c 0 t) (iblk m c 1 t) j = bmm (V m c main_v0) (V m c main_v1) (((cfg0.win 2).blk t).view.emb j)
  refine Tile.point_eq (V m c main_v0) (V m c main_v1) (iblk m c 0 t) (iblk m c 1 t) (t.val / 4) (t.val % 4) ?_ ?_ j _ ?_ ?_ ?_
  · intro p k a ha0 ha1 ha2
    show V m c main_v0 (((cfg0.win 0).blk t).view.emb (ix3 (0 : Fin 1) p k)) = V m c main_v0 a
    refine congrArg _ (funext fun ax => Fin.ext ?_)
    match ax with
    | ⟨0, _⟩ => show win0_0.index t (0 : Fin 3) * 1 + 1 * 0 = (a 0).val; omega
    | ⟨1, _⟩ => show win0_0.index t (1 : Fin 3) * 512 + 1 * p.val = (a 1).val; omega
    | ⟨2, _⟩ => show win0_0.index t (2 : Fin 3) * 2048 + 1 * k.val = (a 2).val; omega
  · intro k q a ha0 ha1 ha2
    show V m c main_v1 (((cfg0.win 1).blk t).view.emb (ix3 (0 : Fin 1) k q)) = V m c main_v1 a
    refine congrArg _ (funext fun ax => Fin.ext ?_)
    match ax with
    | ⟨0, _⟩ => show win0_1.index t (0 : Fin 3) * 1 + 1 * 0 = (a 0).val; omega
    | ⟨1, _⟩ => show win0_1.index t (1 : Fin 3) * 2048 + 1 * k.val = (a 1).val; omega
    | ⟨2, _⟩ => show win0_1.index t (2 : Fin 3) * 256 + 1 * q.val = (a 2).val; omega
  · show win0_2.index t (0 : Fin 3) * 1 + 1 * (j 0).val = t.val / 4
    have hj : (j 0).val < 1 := (j 0).isLt
    omega
  · show win0_2.index t (1 : Fin 3) * 512 + 1 * (j 1).val = t.val % 4 * 512 + (j 1).val
    omega
  · show win0_2.index t (2 : Fin 3) * 256 + 1 * (j 2).val = (j 2).val
    omega

/-- An index of the result array lies in point `t`'s block iff each coordinate lies in the block's range on its axis. -/
theorem mem_blk (t : Fin cfg0.N) (i : S8x2048x256.Idx) :
    i ∈ ((cfg0.win 2).blk t).view.set ↔ ∀ a : Fin 3, win0_2.index t a * S1x512x256.size a ≤ (i a).val ∧ (i a).val < win0_2.index t a * S1x512x256.size a + S1x512x256.size a := by
  show i ∈ ((View.whole main_v2).slice (win0_2.rect t)).set ↔ _
  rw [View.set_slice_whole, Rect.mem_set_unit]
  exact Iff.rfl

/-- The blocks tile the result array: index `(b, n, q)` lies in the block of the point with batch `b` and row block `n / 512`. -/
theorem cover (i : S8x2048x256.Idx) : ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 256 := (i 2).isLt
  obtain ⟨t, ht⟩ := block_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 256 ≤ (i 2).val ∧ (i 2).val < win0_2.index t (2 : Fin 3) * 256 + 256; omega

/-- After the launch the result array is the batched product of the two arrays the launch found. -/
theorem final (c : Dev nD) : (dats m 0 c).arrAt 2 cfg0.N = bmm (V m c main_v0) (V m c main_v1) :=
  (dats m 0 c).arrAt_eq_of_cover 2 (bmm (V m c main_v0) (V m c main_v1)) (fun t _ => flushed_eq m c t) (cover)

end Cert.KernelIdeal.Blocks

end
-- ==== Proof.Host.lean ====
/-
  The host operations around the one kernel launch. Before it, both arguments are flattened from a [2, 4] grid of
  batches to eight batches: the launch finds those two reshaped arrays. After it, the launch's result array is
  unflattened to the [2, 4] grid: that reshape of whatever the launch left is the program's result.
-/
import proofs.«126735_g50268297232528_cont_8to1_c_1024_3_alg».proof.Proof.Gen.KernelIdeal.Frame
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The launch's left operand array: the first argument with its two batch axes flattened. -/
theorem entry_lhs (c : Dev nD) :
    V m c main_v0 = shapeCast S8x2048x2048 (m ((c : Thread nD τ).loc main_arg0)) shapeCasts_S2x4x2048x2048_S8x2048x2048 := by
  show StableHlo.after hostOps0 (fun b => m (c, b)) (Proc.devRef .tc main_v0) = _
  after_results
  rfl

/-- The launch's right operand array: the second argument with its two batch axes flattened. -/
theorem entry_rhs (c : Dev nD) :
    V m c main_v1 = shapeCast S8x2048x256 (m ((c : Thread nD τ).loc main_arg1)) shapeCasts_S2x4x2048x256_S8x2048x256 := by
  show StableHlo.after hostOps0 (fun b => m (c, b)) (Proc.devRef .tc main_v1) = _
  after_results
  rfl

/-- The program's result: the launch's result array, as the proof data computes it, with the batch axis unflattened. -/
theorem result_eq (c : Dev nD) :
    Pipeline.afterTail₀ cfgs (dats m) 0 (V0 m) [hostOps1] c main_v3
      = shapeCast S2x4x2048x256 ((dats m 0 c).arrAt 2 cfg0.N) shapeCasts_S8x2048x256_S2x4x2048x256 := by
  unfold Pipeline.afterTail₀
  show StableHlo.after hostOps1 _ (Proc.devRef .tc main_v3) = _
  after_results
  exact congrArg (fun x => shapeCast S2x4x2048x256 x shapeCasts_S8x2048x256_S2x4x2048x256)
    (Pipeline.withArrays_arr spec0 launch0.win.arr_inj c _ _ 2)

end Cert.KernelIdeal.Host

end
-- ==== Proof.KernelRun.lean ====
/-
  The kernel program's run at the extended reals, with its result named: every weakly fair execution terminates with
  the result buffer holding the batched product of the two flattened arguments, unflattened, and the arguments
  unchanged. The generated frame run gives the launch's result array as the proof data computes it and every other
  buffer as the host operations after the launch leave it; `Blocks.final` says what the former is, `Host.result_eq` what
  the latter is at the result buffer.
-/
import proofs.«126735_g50268297232528_cont_8to1_c_1024_3_alg».proof.Proof.Blocks
import proofs.«126735_g50268297232528_cont_8to1_c_1024_3_alg».proof.Proof.Host

noncomputable section

namespace Cert.KernelIdeal.RunValue

open Cert.KernelIdeal Cert.KernelIdeal.Gen Idealize.ShloMosaic Idealize.ShloMosaic.TcCoe Idealize.SL.Sem Cert.BatchMatmul

variable (m : (ℓ : Loc nD τ sig) → Buf (Elt Ideal) ℓ) (ρ : Dev nD → PrngReg)

/-- The program's result as a function of its two arguments: flatten the batch grid, multiply batch by batch, unflatten. -/
abbrev result (c : Dev nD) : Buf (Elt Ideal) ((c.tc : Thread nD τ).loc main_v3) :=
  shapeCast S2x4x2048x256
    (bmm (shapeCast S8x2048x2048 (m ((c.tc : Thread nD τ).loc main_arg0)) shapeCasts_S2x4x2048x2048_S8x2048x2048)
      (shapeCast S8x2048x256 (m ((c.tc : Thread nD τ).loc main_arg1)) shapeCasts_S2x4x2048x256_S8x2048x256))
    shapeCasts_S8x2048x256_S2x4x2048x256

/-- What the program's result buffer holds at the end, from the proof data's account of the launch. -/
theorem tail_value (c : Dev nD) :
    Pipeline.afterTail₀ cfgs (dats m) 0 (V0 m) [hostOps1] c main_v3 = result m c :=
  (Host.result_eq m c).trans
    (congrArg (fun x => shapeCast S2x4x2048x256 x shapeCasts_S8x2048x256_S2x4x2048x256)
      ((Blocks.final m c).trans (congrArg₂ bmm (Host.entry_lhs m c) (Host.entry_rhs m c))))

/-- The run, with the result named. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.RunValue

end
-- ==== Proof.RefValue.lean ====
/-
  The reference at the extended reals: its result is the batched product `bmm` of the two reshaped arguments,
  reshaped back. The reference's `dot_general` contracts axis 2 of the left operand with axis 1 of the right one and
  batches over axis 0, so read at an output index `(b, r, n)` it is the sum over `k` of `A[b, r, k] · B[b, k, n]`.
-/
import proofs.«126735_g50268297232528_cont_8to1_c_1024_3_alg».proof.Proof.Gen.ReferenceIdeal.Read
import proofs.«126735_g50268297232528_cont_8to1_c_1024_3_alg».proof.Proof.Spec

noncomputable section

namespace Cert.ReferenceIdeal.RefValue

open Cert.ReferenceIdeal Cert.ReferenceIdeal.Gen Cert.ReferenceIdeal.Read Idealize.ShloMosaic Cert.BatchMatmul

/-- The host's batched `dot_general` of the reshaped arguments is `bmm` of them: at every output index the same sum,
    over the same operand entries. -/
theorem product_eq (x0 : (⟨S2x4x2048x2048, .f32⟩ : BufTy).Contents (Elt Ideal)) (x1 : (⟨S2x4x2048x256, .f32⟩ : BufTy).Contents (Elt Ideal)) :
    val_main_v2 (F := Ideal) x0 x1 = bmm (val_main_v0 (F := Ideal) x0) (val_main_v1 (F := Ideal) x1) := by
  funext i
  rw [val_main_v2_apply]
  rfl

/-- The reference's result: `bmm` of the two arguments flattened to eight batches, unflattened to the [2, 4] batch grid. -/
theorem result_eq (x0 : (⟨S2x4x2048x2048, .f32⟩ : BufTy).Contents (Elt Ideal)) (x1 : (⟨S2x4x2048x256, .f32⟩ : BufTy).Contents (Elt Ideal)) :
    val_main_v3 (F := Ideal) x0 x1
      = shapeCast S2x4x2048x256 (bmm (shapeCast S8x2048x2048 x0 shapeCasts_S2x4x2048x2048_S8x2048x2048)
          (shapeCast S8x2048x256 x1 shapeCasts_S2x4x2048x256_S8x2048x256)) shapeCasts_S8x2048x256_S2x4x2048x256 := by
  unfold val_main_v3
  rw [product_eq]
  rfl

end Cert.ReferenceIdeal.RefValue

end
-- ==== Proof.lean ====
/-
  A batched matrix product, computed tile by tile on the matrix unit, against the same product as one host
  `dot_general`. Both programs flatten the [2, 4] grid of batches to eight batches, multiply each 2048 × 2048 left matrix
  by its 2048 × 256 right matrix, and unflatten. The kernel walks an 8 × 4 grid: point `(b, r)` multiplies rows
  `512·r … 512·r + 511` of batch `b` by all of batch `b`'s right matrix, rounding both tiles to bf16 on the way in — the
  identity on the extended reals — and accumulating from zero, so each entry it writes is the full sum over the
  contracted axis, `∑ k < 2048, A[b, n, k] · B[b, k, q]`, which is what the reference's `dot_general` is at that entry.
  The two sums have the same terms in the same order; no algebraic law and no finiteness is used.
  The frames of the two kernel programs are the generated ones; the reference's frame is its generated run with the
  result dropped; the idealization rewrote nothing, so `preserves` is trivial.
-/
import proofs.«126735_g50268297232528_cont_8to1_c_1024_3_alg».proof.Defs
import proofs.«126735_g50268297232528_cont_8to1_c_1024_3_alg».proof.Proof.Gen.Kernel
import proofs.«126735_g50268297232528_cont_8to1_c_1024_3_alg».proof.Proof.Gen.Kernel.Skeleton
import proofs.«126735_g50268297232528_cont_8to1_c_1024_3_alg».proof.Proof.Gen.Kernel.Launch
import proofs.«126735_g50268297232528_cont_8to1_c_1024_3_alg».proof.Proof.Gen.Kernel.Points
import proofs.«126735_g50268297232528_cont_8to1_c_1024_3_alg».proof.Proof.Gen.Kernel.Frame
import proofs.«126735_g50268297232528_cont_8to1_c_1024_3_alg».proof.Proof.Gen.KernelIdeal
import proofs.«126735_g50268297232528_cont_8to1_c_1024_3_alg».proof.Proof.Gen.KernelIdeal.Skeleton
import proofs.«126735_g50268297232528_cont_8to1_c_1024_3_alg».proof.Proof.Gen.KernelIdeal.Launch
import proofs.«126735_g50268297232528_cont_8to1_c_1024_3_alg».proof.Proof.Gen.KernelIdeal.Points
import proofs.«126735_g50268297232528_cont_8to1_c_1024_3_alg».proof.Proof.Gen.KernelIdeal.Frame
import proofs.«126735_g50268297232528_cont_8to1_c_1024_3_alg».proof.Proof.Gen.ReferenceIdeal
import proofs.«126735_g50268297232528_cont_8to1_c_1024_3_alg».proof.Proof.Gen.Pre_finite_inputs
import proofs.«126735_g50268297232528_cont_8to1_c_1024_3_alg».proof.Proof.Gen.ReferenceIdeal.Run
import proofs.«126735_g50268297232528_cont_8to1_c_1024_3_alg».proof.Proof.Gen.ReferenceIdeal.Read
import proofs.«126735_g50268297232528_cont_8to1_c_1024_3_alg».proof.Proof.KernelRun
import proofs.«126735_g50268297232528_cont_8to1_c_1024_3_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the batched product of the flattened arguments, unflattened: the kernel program by
    `RunValue.run`, the reference by its generated run read as `bmm` (`RefValue.result_eq`), from arguments that agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
